-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x32 .f32) (main_arg3 : FVec F S32 .f32) (main_arg4 : FVec F S32x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S100000x32 : Shape := ⟨2, ![100000, 32]⟩
abbrev S10000x128 : Shape := ⟨2, ![10000, 128]⟩
abbrev S10000x32 : Shape := ⟨2, ![10000, 32]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x32 : Shape := ⟨2, ![3200000, 32]⟩
abbrev S1x32 : Shape := ⟨2, ![1, 32]⟩
abbrev S10000x1 : Shape := ⟨2, ![10000, 1]⟩
abbrev S100000x16 : Shape := ⟨2, ![100000, 16]⟩
abbrev S10000x16 : Shape := ⟨2, ![10000, 16]⟩
abbrev S3200000x16 : Shape := ⟨2, ![3200000, 16]⟩
abbrev S1x16 : Shape := ⟨2, ![1, 16]⟩

abbrev nBuf : Space → Nat
  | .hbm => 79
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x32, .f32⟩
  | .hbm, ⟨11, _⟩ => ⟨S_, .f32⟩
  | .hbm, ⟨12, _⟩ => ⟨S3200000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000, .f32⟩
  | .hbm, ⟨39, _⟩ => ⟨S3200000, .f32⟩
  | .hbm, ⟨40, _⟩ => ⟨S100000, .f32⟩
  | .hbm, ⟨41, _⟩ => ⟨S100000x1, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000x32, .f32⟩
  | .hbm, ⟨51, _⟩ => ⟨S3200000x1, .f32⟩
  | .hbm, ⟨52, _⟩ => ⟨S3200000x32, .f32⟩
  | .hbm, ⟨53, _⟩ => ⟨S3200000x32, .f32⟩
  | .hbm, ⟨54, _⟩ => ⟨S_, .f32⟩
  | .hbm, ⟨55, _⟩ => ⟨S100000x32, .f32⟩
  | .hbm, ⟨56, _⟩ => ⟨S3200000x1, .i32⟩
  | .hbm, ⟨57, _⟩ => ⟨S100000x32, .f32⟩
  | .hbm, ⟨58, _⟩ => ⟨S1x32, .f32⟩
  | .hbm, ⟨59, _⟩ => ⟨S100000x32, .f32⟩
  | .hbm, ⟨60, _⟩ => ⟨S100000x16, .f32⟩
  | .hbm, ⟨61, _⟩ => ⟨S_, .i32⟩
  | .hbm, ⟨62, _⟩ => ⟨S3200000, .i32⟩
  | .hbm, ⟨63, _⟩ => ⟨S3200000, .i1⟩
  | .hbm, ⟨64, _⟩ => ⟨S_, .i32⟩
  | .hbm, ⟨65, _⟩ => ⟨S3200000, .i32⟩
  | .hbm, ⟨66, _⟩ => ⟨S3200000, .i32⟩
  | .hbm, ⟨67, _⟩ => ⟨S3200000, .i32⟩
  | .hbm, ⟨68, _⟩ => ⟨S3200000x1, .i32⟩
  | .hbm, ⟨69, _⟩ => ⟨S3200000x16, .f32⟩
  | .hbm, ⟨70, _⟩ => ⟨S3200000x1, .f32⟩
  | .hbm, ⟨71, _⟩ => ⟨S3200000x16, .f32⟩
  | .hbm, ⟨72, _⟩ => ⟨S3200000x16, .f32⟩
  | .hbm, ⟨73, _⟩ => ⟨S_, .f32⟩
  | .hbm, ⟨74, _⟩ => ⟨S100000x16, .f32⟩
  | .hbm, ⟨75, _⟩ => ⟨S3200000x1, .i32⟩
  | .hbm, ⟨76, _⟩ => ⟨S100000x16, .f32⟩
  | .hbm, ⟨77, _⟩ => ⟨S1x16, .f32⟩
  | .hbm, ⟨78, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S10000x1, .f32⟩
  | .local _ .vmem, ⟨10, _⟩ => ⟨S10000x1, .f32⟩
  | .local _ .vmem, ⟨11, _⟩ => ⟨S1x32, .f32⟩
  | .local _ .vmem, ⟨12, _⟩ => ⟨S10000x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S32x16, .f32⟩
  | .local _ .vmem, ⟨17, _⟩ => ⟨S10000x16, .f32⟩
  | .local _ .vmem, ⟨18, _⟩ => ⟨S10000x16, .f32⟩
  | .local _ .vmem, ⟨19, _⟩ => ⟨S10000x16, .f32⟩
  | .local _ .vmem, ⟨20, _⟩ => ⟨S10000x16, .f32⟩
  | .local _ .vmem, ⟨21, _⟩ => ⟨S10000x16, .f32⟩
  | .local _ .vmem, ⟨22, _⟩ => ⟨S10000x16, .f32⟩
  | .local _ .vmem, ⟨23, _⟩ => ⟨S10000x1, .f32⟩
  | .local _ .vmem, ⟨24, _⟩ => ⟨S10000x1, .f32⟩
  | .local _ .vmem, ⟨25, _⟩ => ⟨S1x16, .f32⟩
  | .local _ .vmem, ⟨26, _⟩ => ⟨S10000x16, .f32⟩
  | .local _ .vmem, ⟨27, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  broadcasts_S10000x1_S10000x16 : S10000x1.Broadcasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  dot_S10000x128_S128x32_S10000x32_1_0_0_1_n_n_wf : DotDims.WF S10000x128 S128x32 S10000x32 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S10000x32_S32x16_S10000x16_1_0_0_1_n_n_wf : DotDims.WF S10000x32 S32x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x32.size a ≤ S100000x32.size a
  hwx1_4 : ∀ i : grid1.Coords, EltTy.bits .f32 = 32 ∨ (Rect.block (s := S100000x32) S10000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S100000x16.size a
  hwx3_1 : ∀ i : grid3.Coords, EltTy.bits .f32 = 32 ∨ (Rect.block (s := S100000x16) S10000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x16.size a ≤ S100000x16.size a
  hwx3_4 : ∀ i : grid3.Coords, EltTy.bits .f32 = 32 ∨ (Rect.block (s := S100000x16) S10000x16.size (cc3_transform_4 i) (hinb3_4 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S10000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S100000x32 : Shape := ⟨2, ![100000, 32]⟩
abbrev S_ : Shape := ⟨0, ![]⟩
abbrev S100000 : Shape := ⟨1, ![100000]⟩
abbrev S3200000x1 : Shape := ⟨2, ![3200000, 1]⟩
abbrev S3200000x32 : Shape := ⟨2, ![3200000, 32]⟩
abbrev S100000x1 : Shape := ⟨2, ![100000, 1]⟩
abbrev S1x32 : Shape := ⟨2, ![1, 32]⟩
abbrev S100000x16 : Shape := ⟨2, ![100000, 16]⟩
abbrev S3200000x16 : Shape := ⟨2, ![3200000, 16]⟩
abbrev S1x16 : Shape := ⟨2, ![1, 16]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x32, .f32⟩
  | .hbm, ⟨11, _⟩ => ⟨S_, .f32⟩
  | .hbm, ⟨12, _⟩ => ⟨S3200000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000, .f32⟩
  | .hbm, ⟨39, _⟩ => ⟨S3200000, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x32, .f32⟩
  | .hbm, ⟨49, _⟩ => ⟨S3200000x1, .f32⟩
  | .hbm, ⟨50, _⟩ => ⟨S3200000x32, .f32⟩
  | .hbm, ⟨51, _⟩ => ⟨S3200000x32, .f32⟩
  | .hbm, ⟨52, _⟩ => ⟨S_, .f32⟩
  | .hbm, ⟨53, _⟩ => ⟨S100000x32, .f32⟩
  | .hbm, ⟨54, _⟩ => ⟨S3200000x1, .i32⟩
  | .hbm, ⟨55, _⟩ => ⟨S100000x32, .f32⟩
  | .hbm, ⟨56, _⟩ => ⟨S100000, .f32⟩
  | .hbm, ⟨57, _⟩ => ⟨S100000x1, .f32⟩
  | .hbm, ⟨58, _⟩ => ⟨S100000x32, .f32⟩
  | .hbm, ⟨59, _⟩ => ⟨S100000x32, .f32⟩
  | .hbm, ⟨60, _⟩ => ⟨S100000x32, .f32⟩
  | .hbm, ⟨61, _⟩ => ⟨S1x32, .f32⟩
  | .hbm, ⟨62, _⟩ => ⟨S100000x32, .f32⟩
  | .hbm, ⟨63, _⟩ => ⟨S100000x32, .f32⟩
  | .hbm, ⟨64, _⟩ => ⟨S_, .f32⟩
  | .hbm, ⟨65, _⟩ => ⟨S100000x32, .f32⟩
  | .hbm, ⟨66, _⟩ => ⟨S100000x32, .f32⟩
  | .hbm, ⟨67, _⟩ => ⟨S100000x16, .f32⟩
  | .hbm, ⟨68, _⟩ => ⟨S_, .f32⟩
  | .hbm, ⟨69, _⟩ => ⟨S3200000, .f32⟩
  | .hbm, ⟨70, _⟩ => ⟨S_, .f32⟩
  | .hbm, ⟨71, _⟩ => ⟨S100000, .f32⟩
  | .hbm, ⟨72, _⟩ => ⟨S3200000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S3200000, .i32⟩
  | .hbm, ⟨80, _⟩ => ⟨S3200000, .i1⟩
  | .hbm, ⟨81, _⟩ => ⟨S_, .i32⟩
  | .hbm, ⟨82, _⟩ => ⟨S3200000, .i32⟩
  | .hbm, ⟨83, _⟩ => ⟨S3200000, .i32⟩
  | .hbm, ⟨84, _⟩ => ⟨S3200000, .i32⟩
  | .hbm, ⟨85, _⟩ => ⟨S3200000x1, .i32⟩
  | .hbm, ⟨86, _⟩ => ⟨S3200000, .f32⟩
  | .hbm, ⟨87, _⟩ => ⟨S_, .i32⟩
  | .hbm, ⟨88, _⟩ => ⟨S3200000, .i32⟩
  | .hbm, ⟨89, _⟩ => ⟨S3200000, .i1⟩
  | .hbm, ⟨90, _⟩ => ⟨S_, .i32⟩
  | .hbm, ⟨91, _⟩ => ⟨S3200000, .i32⟩
  | .hbm, ⟨92, _⟩ => ⟨S3200000, .i32⟩
  | .hbm, ⟨93, _⟩ => ⟨S3200000, .i32⟩
  | .hbm, ⟨94, _⟩ => ⟨S3200000x1, .i32⟩
  | .hbm, ⟨95, _⟩ => ⟨S3200000, .f32⟩
  | .hbm, ⟨96, _⟩ => ⟨S3200000, .f32⟩
  | .hbm, ⟨97, _⟩ => ⟨S_, .i32⟩
  | .hbm, ⟨98, _⟩ => ⟨S3200000, .i32⟩
  | .hbm, ⟨99, _⟩ => ⟨S3200000, .i1⟩
  | .hbm, ⟨100, _⟩ => ⟨S_, .i32⟩
  | .hbm, ⟨101, _⟩ => ⟨S3200000, .i32⟩
  | .hbm, ⟨102, _⟩ => ⟨S3200000, .i32⟩
  | .hbm, ⟨103, _⟩ => ⟨S3200000, .i32⟩
  | .hbm, ⟨104, _⟩ => ⟨S3200000x1, .i32⟩
  | .hbm, ⟨105, _⟩ => ⟨S3200000x16, .f32⟩
  | .hbm, ⟨106, _⟩ => ⟨S3200000x1, .f32⟩
  | .hbm, ⟨107, _⟩ => ⟨S3200000x16, .f32⟩
  | .hbm, ⟨108, _⟩ => ⟨S3200000x16, .f32⟩
  | .hbm, ⟨109, _⟩ => ⟨S_, .f32⟩
  | .hbm, ⟨110, _⟩ => ⟨S100000x16, .f32⟩
  | .hbm, ⟨111, _⟩ => ⟨S3200000x1, .i32⟩
  | .hbm, ⟨112, _⟩ => ⟨S100000x16, .f32⟩
  | .hbm, ⟨113, _⟩ => ⟨S100000, .f32⟩
  | .hbm, ⟨114, _⟩ => ⟨S100000x1, .f32⟩
  | .hbm, ⟨115, _⟩ => ⟨S100000x16, .f32⟩
  | .hbm, ⟨116, _⟩ => ⟨S100000x16, .f32⟩
  | .hbm, ⟨117, _⟩ => ⟨S100000x16, .f32⟩
  | .hbm, ⟨118, _⟩ => ⟨S1x16, .f32⟩
  | .hbm, ⟨119, _⟩ => ⟨S100000x16, .f32⟩
  | .hbm, ⟨120, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x128_S128x32_S100000x32_1_0_0_1_n_n_wf : DotDims.WF S100000x128 S128x32 S100000x32 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.KernelRun.lean ====
/-
  The idealized kernel's run with its result named.

  The program is four grid launches among three stretches of host operations.  Between two consecutive segments the
  TensorCore's buffers hold a definite valuation: the launch memory, then after each stretch the stretch's operations
  folded over the valuation before it, and after each launch the valuation before it with the launch's arrays
  replaced by what its write-backs leave.  The last of these valuations, read at the result buffer, is what every weakly
  fair execution ends with there; the argument arrays end as launched.
-/
import proofs.«175498_j49555332661729_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's valuation,
    and every argument array as launched. -/
theorem run_named : θ_run defs (onTc (τ := τ) (main (F := F))) ⟨m, fun _ => 0, ρ⟩ (fun r => ∀ c : Dev nD,
      r.2.mem ((c.tc : Thread nD τ).loc main_v59) = W7 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v59 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Whole

end
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.FeatureProduct1.lean ====
/-
  The first layer's feature transform: the launch over row blocks computes the whole matrix product.

  The left operand [100000, 128] is cut into ten blocks of 10000 rows; at each block the body multiplies the block by the
  whole weight [128, 32] into a zero accumulator and writes the [10000, 32] result back as the same rows of the output.
  Entry (r, q) of the output is therefore the sum over k of x(r, k) · w(k, q): the host's contraction of the two arrays.
-/
import proofs.«175498_j49555332661729_1_alg».proof.Proof.Gen.KernelIdeal.Frame
import proofs.«175498_j49555332661729_1_alg».proof.Proof.Gen.ReferenceIdeal.Read
import proofs.«175498_j49555332661729_1_alg».proof.Proof.LibRowOps
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.FeatureProduct1

open Cert.KernelIdeal Cert.KernelIdeal.Gen

-- the buffers as the launch finds them: any valuation
variable (V : (c : Dev nD) → (b : Ref sig .tc) → Buf (Elt Ideal) ((c : Thread nD τ).loc b))

theorem zero_offsets : (![0, 0] : Fin 2 → Nat) = fun _ => 0 := funext fun a => by fin_cases a <;> rfl

/-! ## The body's product at an entry -/

/-- Which operand coordinate the product's dimension numbers take from the output's row. -/
theorem lhs_row (i : S10000x32.Idx) (q : dot_S10000x128_S128x32_S10000x32_1_0_0_1_n_n.contr.Idx) : (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
/-- The left operand's column is the contracted coordinate. -/
theorem lhs_col (i : S10000x32.Idx) (q : dot_S10000x128_S128x32_S10000x32_1_0_0_1_n_n.contr.Idx) : (dot_S10000x128_S128x32_S10000x32_1_0_0_1_n_n.lhsIdx i q 1).val = (q ⟨0, by decide⟩).val :=
  dot_S10000x128_S128x32_S10000x32_1_0_0_1_n_n.lhsIdx_val_of_single rfl i q
/-- The right operand's row is the contracted coordinate. -/
theorem rhs_row (i : S10000x32.Idx) (q : dot_S10000x128_S128x32_S10000x32_1_0_0_1_n_n.contr.Idx) : (dot_S10000x128_S128x32_S10000x32_1_0_0_1_n_n.rhsIdx i q 0).val = (q ⟨0, by decide⟩).val :=
  dot_S10000x128_S128x32_S10000x32_1_0_0_1_n_n.rhsIdx_val_of_single rfl i q
/-- The right operand's column is the output's column. -/
theorem rhs_col (i : S10000x32.Idx) (q : dot_S10000x128_S128x32_S10000x32_1_0_0_1_n_n.contr.Idx) : (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- What the body stores, at row `p` and column `q` of its block: the sum over `k` of the row block's `(p, k)` entry
    times the weight's `(k, q)` entry.  (Rounding the operands to a narrower format is the identity on the extended reals,
    and the accumulator starts at zero.) -/
theorem stored_entry (x0 : Vec Ideal S10000x128 .f32) (x1 : Vec Ideal S128x32 .f32) (p : Fin 10000) (q : Fin 32) :
    k0_pay1 x0 x1 (ix2 p q) = ∑ k : Fin 128, x0 (ix2 p k) * x1 (ix2 k q) := by
  unfold k0_pay1
  exact Cert.RowOps.matmul_zero_entry dot_S10000x128_S128x32_S10000x32_1_0_0_1_n_n rfl rfl lhs_row lhs_col rhs_row rhs_col none _ _ p q

/-! ## The blocks as rows of the arrays -/

/-- The grid's point `t` takes block `t` of the rows of the left operand and of the result, and the whole weight. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row block at point `t` holds rows `10000 t … 10000 t + 9999` of the left operand. -/
theorem rows_block (c : Dev nD) (t : Fin cfg0.N) (y : S10000x128.Idx) (i : S100000x128.Idx)
    (h0 : (i 0).val = 10000 * t.val + (y 0).val) (h1 : (i 1).val = (y 1).val) :
    (iblk0 V c 0 t : Vec Ideal S10000x128 .f32) y = (V c main_arg0 : S100000x128.Idx → Ideal .f32) i := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The weight's block at every point is the whole weight. -/
theorem weight_block (c : Dev nD) (t : Fin cfg0.N) (y : S128x32.Idx) (i : S128x32.Idx)
    (h0 : (i 0).val = (y 0).val) (h1 : (i 1).val = (y 1).val) :
    (iblk0 V c 1 t : Vec Ideal S128x32 .f32) y = (V c main_arg2 : S128x32.Idx → Ideal .f32) i := by
  obtain ⟨-, -, e2, e3, -⟩ := block_indices t
  unfold iblk0
  rw [View.read_apply]
  show V c main_arg2 _ = V c main_arg2 _
  congr 1
  funext a
  apply Fin.ext
  match a with
  | ⟨0, _⟩ => show win0_1.index t (0 : Fin 2) * 128 + 1 * (y 0).val = (i 0).val; rw [e2, h0]; omega
  | ⟨1, _⟩ => show win0_1.index t (1 : Fin 2) * 32 + 1 * (y 1).val = (i 1).val; rw [e3, h1]; omega

/-! ## What a point writes back, and the array after the launch -/

/-- The whole product, as the host's contraction of the two arrays. -/
abbrev product (x : FVec Ideal Cert.ReferenceIdeal.S100000x128 .f32) (w : FVec Ideal Cert.ReferenceIdeal.S128x32 .f32) :
    FVec Ideal Cert.ReferenceIdeal.S100000x32 .f32 :=
  Host.dotGeneral (F := Ideal) Cert.ReferenceIdeal.dot_S100000x128_S128x32_S100000x32_1_0_0_1_n_n none x w

/-- Point `t` writes back block `t` of the whole product: an entry of the block is the row block's row against the
    weight's column, and those are the array's row `10000 t + p` and the weight's column. -/
theorem written_block (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x32) zero_offsets]
  obtain ⟨-, -, -, -, e4, e5⟩ := block_indices t
  funext j
  obtain ⟨p, q, rfl⟩ : ∃ (p : Fin 10000) (q : Fin 32), j = ix2 p q := ⟨j 0, j 1, eq_ix2 j⟩
  rw [View.read_apply]
  refine (stored_entry (iblk0 V c 0 t) (iblk0 V c 1 t) p q).trans ?_
  have hN : cfg0.N = 10 := N_0
  have hp : (p : Nat) < 10000 := p.isLt
  have hrow : 10000 * t.val + (p : Nat) < 100000 := by have := t.isLt; omega
  have hi : ((cfg0.win 2).blk t).view.emb (ix2 p q) = (ix2 (⟨10000 * t.val + (p : Nat), hrow⟩ : Fin 100000) q : S100000x32.Idx) := by
    funext a
    apply Fin.ext
    match a with
    | ⟨0, _⟩ => show win0_2.index t (0 : Fin 2) * 10000 + 1 * (p : Nat) = 10000 * t.val + (p : Nat); rw [e4]; omega
    | ⟨1, _⟩ => show win0_2.index t (1 : Fin 2) * 32 + 1 * (q : Nat) = (q : Nat); rw [e5]; omega
  rw [hi]
  refine Eq.trans ?_ (Cert.RowOps.dotGeneral_entry Cert.ReferenceIdeal.dot_S100000x128_S128x32_S100000x32_1_0_0_1_n_n rfl rfl
    Cert.ReferenceIdeal.Read.lhs_main_v4_0 Cert.ReferenceIdeal.Read.lhs_main_v4_1
    Cert.ReferenceIdeal.Read.rhs_main_v4_0 Cert.ReferenceIdeal.Read.rhs_main_v4_1 none _ _ _ q).symm
  refine Finset.sum_congr rfl fun k _ => ?_
  exact congrArg₂ (· * ·) (rows_block V c t (ix2 p k) _ rfl rfl) (weight_block V c t (ix2 k q) _ rfl rfl)

/-- An index of the result is in point `t`'s block iff its row is among that block's rows. -/
theorem in_block (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v4).slice (win0_2.rect t)).set ↔ _
  rw [View.set_slice_whole, Rect.mem_set_unit]
  exact Iff.rfl

/-- Row `r` of the result lies in the block of point `r / 10000`. -/
theorem every_row_written (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : grid0.N = 10 := N_0
  have ht : (i 0).val / 10000 < cfg0.N := by show (i 0).val / 10000 < grid0.N; rw [hN]; omega
  refine ⟨⟨(i 0).val / 10000, ht⟩, flush0_2 _, ?_⟩
  rw [in_block]
  obtain ⟨-, -, -, -, e4, e5⟩ := block_indices ⟨(i 0).val / 10000, ht⟩
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 32 ≤ (i 1).val ∧ (i 1).val < win0_2.index ⟨(i 0).val / 10000, ht⟩ (1 : Fin 2) * 32 + 32
    rw [e5]; omega

/-- After the launch the result array is the whole product of the two arrays as the launch found them. -/
theorem array_after (c : Dev nD) :
    (dat0 V c).arrAt 2 cfg0.N = product (V c main_arg0) (V c main_arg2) :=
  (dat0 V c).arrAt_eq_of_cover 2 _ (fun t _ => written_block V c t) every_row_written

end Cert.KernelIdeal.FeatureProduct1

end
-- ==== Proof.FeatureProduct2.lean ====
/-
  The second layer's feature transform: the launch over row blocks computes the whole matrix product.

  The left operand [100000, 32] is cut into ten blocks of 10000 rows; at each block the body multiplies the block by the
  whole weight [32, 16] into a zero accumulator and writes the [10000, 16] result back as the same rows of the output.
  Entry (r, q) of the output is therefore the sum over k of h(r, k) · w(k, q): the host's contraction of the two arrays.
-/
import proofs.«175498_j49555332661729_1_alg».proof.Proof.Gen.KernelIdeal.Frame
import proofs.«175498_j49555332661729_1_alg».proof.Proof.Gen.ReferenceIdeal.Read
import proofs.«175498_j49555332661729_1_alg».proof.Proof.LibRowOps
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.FeatureProduct2

open Cert.KernelIdeal Cert.KernelIdeal.Gen

-- the buffers as the launch finds them: any valuation
variable (V : (c : Dev nD) → (b : Ref sig .tc) → Buf (Elt Ideal) ((c : Thread nD τ).loc b))

theorem zero_offsets : (![0, 0] : Fin 2 → Nat) = fun _ => 0 := funext fun a => by fin_cases a <;> rfl

/-! ## The body's product at an entry -/

/-- Which operand coordinate the product's dimension numbers take from the output's row. -/
theorem lhs_row (i : S10000x16.Idx) (q : dot_S10000x32_S32x16_S10000x16_1_0_0_1_n_n.contr.Idx) : (dot_S10000x32_S32x16_S10000x16_1_0_0_1_n_n.lhsIdx i q 0).val = (i 0).val := by
  unfold DotDims.lhsIdx
  rw [dif_neg (show ¬(0 : Fin S10000x32.rank) ∈ dot_S10000x32_S32x16_S10000x16_1_0_0_1_n_n.lhsBatch by decide), dif_pos (show (0 : Fin S10000x32.rank) ∈ dot_S10000x32_S32x16_S10000x16_1_0_0_1_n_n.lhsNonContracting by decide)]
  rfl
/-- The left operand's column is the contracted coordinate. -/
theorem lhs_col (i : S10000x16.Idx) (q : dot_S10000x32_S32x16_S10000x16_1_0_0_1_n_n.contr.Idx) : (dot_S10000x32_S32x16_S10000x16_1_0_0_1_n_n.lhsIdx i q 1).val = (q ⟨0, by decide⟩).val :=
  dot_S10000x32_S32x16_S10000x16_1_0_0_1_n_n.lhsIdx_val_of_single rfl i q
/-- The right operand's row is the contracted coordinate. -/
theorem rhs_row (i : S10000x16.Idx) (q : dot_S10000x32_S32x16_S10000x16_1_0_0_1_n_n.contr.Idx) : (dot_S10000x32_S32x16_S10000x16_1_0_0_1_n_n.rhsIdx i q 0).val = (q ⟨0, by decide⟩).val :=
  dot_S10000x32_S32x16_S10000x16_1_0_0_1_n_n.rhsIdx_val_of_single rfl i q
/-- The right operand's column is the output's column. -/
theorem rhs_col (i : S10000x16.Idx) (q : dot_S10000x32_S32x16_S10000x16_1_0_0_1_n_n.contr.Idx) : (dot_S10000x32_S32x16_S10000x16_1_0_0_1_n_n.rhsIdx i q 1).val = (i 1).val := by
  unfold DotDims.rhsIdx
  rw [dif_neg (show ¬(1 : Fin S32x16.rank) ∈ dot_S10000x32_S32x16_S10000x16_1_0_0_1_n_n.rhsBatch by decide), dif_pos (show (1 : Fin S32x16.rank) ∈ dot_S10000x32_S32x16_S10000x16_1_0_0_1_n_n.rhsNonContracting by decide)]
  rfl

/-- What the body stores, at row `p` and column `q` of its block: the sum over `k` of the row block's `(p, k)` entry
    times the weight's `(k, q)` entry.  (Rounding the operands to a narrower format is the identity on the extended reals,
    and the accumulator starts at zero.) -/
theorem stored_entry (x0 : Vec Ideal S10000x32 .f32) (x1 : Vec Ideal S32x16 .f32) (p : Fin 10000) (q : Fin 16) :
    k2_pay1 x0 x1 (ix2 p q) = ∑ k : Fin 32, x0 (ix2 p k) * x1 (ix2 k q) := by
  unfold k2_pay1
  simp only [shapeCast_self]
  exact Cert.RowOps.matmul_zero_entry dot_S10000x32_S32x16_S10000x16_1_0_0_1_n_n rfl rfl lhs_row lhs_col rhs_row rhs_col none _ _ p q

/-! ## The blocks as rows of the arrays -/

/-- The grid's point `t` takes block `t` of the rows of the left operand and of the result, and the whole weight. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row block at point `t` holds rows `10000 t … 10000 t + 9999` of the left operand. -/
theorem rows_block (c : Dev nD) (t : Fin cfg2.N) (y : S10000x32.Idx) (i : S100000x32.Idx)
    (h0 : (i 0).val = 10000 * t.val + (y 0).val) (h1 : (i 1).val = (y 1).val) :
    (iblk2 V c 0 t : Vec Ideal S10000x32 .f32) y = (V c main_v43 : S100000x32.Idx → Ideal .f32) i := by
  obtain ⟨e0, e1, -⟩ := block_indices t
  unfold iblk2
  rw [View.read_apply]
  show V c main_v43 _ = V c main_v43 _
  congr 1
  funext a
  apply Fin.ext
  match a with
  | ⟨0, _⟩ => show win2_0.index t (0 : Fin 2) * 10000 + 1 * (y 0).val = (i 0).val; rw [e0, h0]; omega
  | ⟨1, _⟩ => show win2_0.index t (1 : Fin 2) * 32 + 1 * (y 1).val = (i 1).val; rw [e1, h1]; omega

/-- The weight's block at every point is the whole weight. -/
theorem weight_block (c : Dev nD) (t : Fin cfg2.N) (y : S32x16.Idx) (i : S32x16.Idx)
    (h0 : (i 0).val = (y 0).val) (h1 : (i 1).val = (y 1).val) :
    (iblk2 V c 1 t : Vec Ideal S32x16 .f32) y = (V c main_arg4 : S32x16.Idx → Ideal .f32) i := by
  obtain ⟨-, -, e2, e3, -⟩ := block_indices t
  unfold iblk2
  rw [View.read_apply]
  show V c main_arg4 _ = V c main_arg4 _
  congr 1
  funext a
  apply Fin.ext
  match a with
  | ⟨0, _⟩ => show win2_1.index t (0 : Fin 2) * 32 + 1 * (y 0).val = (i 0).val; rw [e2, h0]; omega
  | ⟨1, _⟩ => show win2_1.index t (1 : Fin 2) * 16 + 1 * (y 1).val = (i 1).val; rw [e3, h1]; omega

/-! ## What a point writes back, and the array after the launch -/

/-- The whole product, as the host's contraction of the two arrays. -/
abbrev product (x : FVec Ideal Cert.ReferenceIdeal.S100000x32 .f32) (w : FVec Ideal Cert.ReferenceIdeal.S32x16 .f32) :
    FVec Ideal Cert.ReferenceIdeal.S100000x16 .f32 :=
  Host.dotGeneral (F := Ideal) Cert.ReferenceIdeal.dot_S100000x32_S32x16_S100000x16_1_0_0_1_n_n none x w

/-- Point `t` writes back block `t` of the whole product: an entry of the block is the row block's row against the
    weight's column, and those are the array's row `10000 t + p` and the weight's column. -/
theorem written_block (c : Dev nD) (t : Fin cfg2.N) :
    (dat2 V c).flushed 2 t = ((cfg2.win 2).blk t).view.read (Elt Ideal) (product (V c main_v43) (V c main_arg4)) := by
  show (cfg2.win 2).cut (grid2.coords t) ((dat2 V c).after 2 t) = _
  rw [after2_2]
  unfold out2_2
  rw [View.canon_unit_zero zero_offsets]
  simp only [View.ld_unit_zero (S := S10000x32) zero_offsets, View.ld_unit_zero (S := S32x16) zero_offsets]
  obtain ⟨-, -, -, -, e4, e5⟩ := block_indices t
  funext j
  obtain ⟨p, q, rfl⟩ : ∃ (p : Fin 10000) (q : Fin 16), j = ix2 p q := ⟨j 0, j 1, eq_ix2 j⟩
  rw [View.read_apply]
  refine (stored_entry (iblk2 V c 0 t) (iblk2 V c 1 t) p q).trans ?_
  have hN : cfg2.N = 10 := N_2
  have hp : (p : Nat) < 10000 := p.isLt
  have hrow : 10000 * t.val + (p : Nat) < 100000 := by have := t.isLt; omega
  have hi : ((cfg2.win 2).blk t).view.emb (ix2 p q) = (ix2 (⟨10000 * t.val + (p : Nat), hrow⟩ : Fin 100000) q : S100000x16.Idx) := by
    funext a
    apply Fin.ext
    match a with
    | ⟨0, _⟩ => show win2_2.index t (0 : Fin 2) * 10000 + 1 * (p : Nat) = 10000 * t.val + (p : Nat); rw [e4]; omega
    | ⟨1, _⟩ => show win2_2.index t (1 : Fin 2) * 16 + 1 * (q : Nat) = (q : Nat); rw [e5]; omega
  rw [hi]
  refine Eq.trans ?_ (Cert.RowOps.dotGeneral_entry Cert.ReferenceIdeal.dot_S100000x32_S32x16_S100000x16_1_0_0_1_n_n rfl rfl
    Cert.ReferenceIdeal.Read.lhs_main_v49_0 Cert.ReferenceIdeal.Read.lhs_main_v49_1
    Cert.ReferenceIdeal.Read.rhs_main_v49_0 Cert.ReferenceIdeal.Read.rhs_main_v49_1 none _ _ _ q).symm
  refine Finset.sum_congr rfl fun k _ => ?_
  exact congrArg₂ (· * ·) (rows_block V c t (ix2 p k) _ rfl rfl) (weight_block V c t (ix2 k q) _ rfl rfl)

/-- An index of the result is in point `t`'s block iff its row is among that block's rows. -/
theorem in_block (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v44).slice (win2_2.rect t)).set ↔ _
  rw [View.set_slice_whole, Rect.mem_set_unit]
  exact Iff.rfl

/-- Row `r` of the result lies in the block of point `r / 10000`. -/
theorem every_row_written (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : grid2.N = 10 := N_2
  have ht : (i 0).val / 10000 < cfg2.N := by show (i 0).val / 10000 < grid2.N; rw [hN]; omega
  refine ⟨⟨(i 0).val / 10000, ht⟩, flush2_2 _, ?_⟩
  rw [in_block]
  obtain ⟨-, -, -, -, e4, e5⟩ := block_indices ⟨(i 0).val / 10000, ht⟩
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 16 ≤ (i 1).val ∧ (i 1).val < win2_2.index ⟨(i 0).val / 10000, ht⟩ (1 : Fin 2) * 16 + 16
    rw [e5]; omega

/-- After the launch the result array is the whole product of the two arrays as the launch found them. -/
theorem array_after (c : Dev nD) :
    (dat2 V c).arrAt 2 cfg2.N = product (V c main_v43) (V c main_arg4) :=
  (dat2 V c).arrAt_eq_of_cover 2 _ (fun t _ => written_block V c t) every_row_written

end Cert.KernelIdeal.FeatureProduct2

end
-- ==== Proof.Combine1.lean ====
/-
  The first layer's combination: the launch over row blocks adds the self-loop term and the bias to the aggregate and clamps at zero.

  Four arrays go in: the neighbour aggregate [100000, 32], the transformed features [100000, 32], the per-node scale
  [100000, 1] and the bias [1, 32].  The first three are cut into ten blocks of 10000 rows, the bias is taken whole; the
  body is entrywise, so the output's entry (r, q) is agg(r, q) + h(r, q) · d(r) + b(q), then the maximum with zero.
-/
import proofs.«175498_j49555332661729_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Combine1

open Cert.KernelIdeal Cert.KernelIdeal.Gen

-- the buffers as the launch finds them: any valuation
variable (V : (c : Dev nD) → (b : Ref sig .tc) → Buf (Elt Ideal) ((c : Thread nD τ).loc b))

theorem zero_offsets : (![0, 0] : Fin 2 → Nat) = fun _ => 0 := funext fun a => by fin_cases a <;> rfl

/-! ## The body's value at an entry -/

/-- What the body stores, at row `p` and column `q` of its block: the aggregate's entry plus the feature's entry times the
    row's scale, plus the column's bias, clamped below at zero.  (The scale is a one-column block and the bias a one-row
    block, each broadcast over the other axis.) -/
theorem stored_entry (x0 x1 : Vec Ideal S10000x32 .f32) (x2 : Vec Ideal S10000x1 .f32) (x3 : Vec Ideal S1x32 .f32)
    (p : Fin 10000) (q : Fin 32) :
    k1_pay1 x0 x1 x2 x3 (ix2 p q) = max ((x0 (ix2 p q) + x1 (ix2 p q) * x2 (ix2 p 0)) + x3 (ix2 0 q)) (Scalar.ofBits (F := Ideal) .f32 0x00000000#32) := by
  have hs : broadcastTo S10000x32 x2 broadcasts_S10000x1_S10000x32 (ix2 p q) = x2 (ix2 p 0) :=
    broadcastTo_apply x2 broadcasts_S10000x1_S10000x32 (ix2 p q) (ix2 p 0) fun a => by
      match a with
      | ⟨0, _⟩ => show (p : Nat) = if (10000 : Nat) = 1 then 0 else (p : Nat); rw [if_neg (by decide)]
      | ⟨1, _⟩ => show (0 : Nat) = if (1 : Nat) = 1 then 0 else (q : Nat); rw [if_pos rfl]
  have hb : broadcastTo S10000x32 x3 broadcasts_S1x32_S10000x32 (ix2 p q) = x3 (ix2 0 q) :=
    broadcastTo_apply x3 broadcasts_S1x32_S10000x32 (ix2 p q) (ix2 0 q) fun a => by
      match a with
      | ⟨0, _⟩ => show (0 : Nat) = if (1 : Nat) = 1 then 0 else (p : Nat); rw [if_pos rfl]
      | ⟨1, _⟩ => show (q : Nat) = if (32 : Nat) = 1 then 0 else (q : Nat); rw [if_neg (by decide)]
  unfold k1_pay1
  simp only [shapeCast_self]
  show max ((x0 (ix2 p q) + x1 (ix2 p q) * broadcastTo S10000x32 x2 broadcasts_S10000x1_S10000x32 (ix2 p q))
      + broadcastTo S10000x32 x3 broadcasts_S1x32_S10000x32 (ix2 p q)) (Scalar.ofBits (F := Ideal) .f32 0x00000000#32) = _
  rw [hs, hb]

/-! ## The blocks as rows of the arrays -/

/-- The grid's point `t` takes block `t` of the rows of the aggregate, the feature, the scale and the result, and the
    whole bias. -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point `t` holds its rows `10000 t … 10000 t + 9999`. -/
theorem aggregate_block (c : Dev nD) (t : Fin cfg1.N) (y : S10000x32.Idx) (i : S100000x32.Idx)
    (h0 : (i 0).val = 10000 * t.val + (y 0).val) (h1 : (i 1).val = (y 1).val) :
    (iblk1 V c 0 t : Vec Ideal S10000x32 .f32) y = (V c main_v41 : S100000x32.Idx → Ideal .f32) i := by
  obtain ⟨e0, e1, -⟩ := block_indices t
  unfold iblk1
  rw [View.read_apply]
  show V c main_v41 _ = V c main_v41 _
  congr 1
  funext a
  apply Fin.ext
  match a with
  | ⟨0, _⟩ => show win1_0.index t (0 : Fin 2) * 10000 + 1 * (y 0).val = (i 0).val; rw [e0, h0]; omega
  | ⟨1, _⟩ => show win1_0.index t (1 : Fin 2) * 32 + 1 * (y 1).val = (i 1).val; rw [e1, h1]; omega

/-- The feature's block at point `t` holds its rows `10000 t … 10000 t + 9999`. -/
theorem feature_block (c : Dev nD) (t : Fin cfg1.N) (y : S10000x32.Idx) (i : S100000x32.Idx)
    (h0 : (i 0).val = 10000 * t.val + (y 0).val) (h1 : (i 1).val = (y 1).val) :
    (iblk1 V c 1 t : Vec Ideal S10000x32 .f32) y = (V c main_v4 : S100000x32.Idx → Ideal .f32) i := by
  obtain ⟨-, -, e0, e1, -⟩ := block_indices t
  unfold iblk1
  rw [View.read_apply]
  show V c main_v4 _ = V c main_v4 _
  congr 1
  funext a
  apply Fin.ext
  match a with
  | ⟨0, _⟩ => show win1_1.index t (0 : Fin 2) * 10000 + 1 * (y 0).val = (i 0).val; rw [e0, h0]; omega
  | ⟨1, _⟩ => show win1_1.index t (1 : Fin 2) * 32 + 1 * (y 1).val = (i 1).val; rw [e1, h1]; omega

/-- The scale's block at point `t` holds its rows `10000 t … 10000 t + 9999` (one column). -/
theorem scale_block (c : Dev nD) (t : Fin cfg1.N) (y : S10000x1.Idx) (i : S100000x1.Idx)
    (h0 : (i 0).val = 10000 * t.val + (y 0).val) (h1 : (i 1).val = (y 1).val) :
    (iblk1 V c 2 t : Vec Ideal S10000x1 .f32) y = (V c main_v28 : S100000x1.Idx → Ideal .f32) i := by
  obtain ⟨-, -, -, -, e0, e1, -⟩ := block_indices t
  unfold iblk1
  rw [View.read_apply]
  show V c main_v28 _ = V c main_v28 _
  congr 1
  funext a
  apply Fin.ext
  match a with
  | ⟨0, _⟩ => show win1_2.index t (0 : Fin 2) * 10000 + 1 * (y 0).val = (i 0).val; rw [e0, h0]; omega
  | ⟨1, _⟩ => show win1_2.index t (1 : Fin 2) * 1 + 1 * (y 1).val = (i 1).val; rw [e1, h1]; omega

/-- The bias's block at every point is the whole bias (one row). -/
theorem bias_block (c : Dev nD) (t : Fin cfg1.N) (y : S1x32.Idx) (i : S1x32.Idx)
    (h0 : (i 0).val = (y 0).val) (h1 : (i 1).val = (y 1).val) :
    (iblk1 V c 3 t : Vec Ideal S1x32 .f32) y = (V c main_v42 : S1x32.Idx → Ideal .f32) i := by
  obtain ⟨-, -, -, -, -, -, e0, e1, -⟩ := block_indices t
  unfold iblk1
  rw [View.read_apply]
  show V c main_v42 _ = V c main_v42 _
  congr 1
  funext a
  apply Fin.ext
  match a with
  | ⟨0, _⟩ => show win1_3.index t (0 : Fin 2) * 1 + 1 * (y 0).val = (i 0).val; rw [e0, h0]; omega
  | ⟨1, _⟩ => show win1_3.index t (1 : Fin 2) * 32 + 1 * (y 1).val = (i 1).val; rw [e1, h1]; omega

/-! ## What a point writes back, and the array after the launch -/

/-- The whole result, entry by entry: `agg(r, q) + h(r, q) · d(r) + b(q)`, clamped below at zero. -/
def combined (agg h : S100000x32.Idx → Ideal .f32) (d : S100000x1.Idx → Ideal .f32) (b : S1x32.Idx → Ideal .f32) :
    S100000x32.Idx → Ideal .f32 :=
  fun i => max ((agg i + h i * d (ix2 (i 0) 0)) + b (ix2 0 (i 1))) (Scalar.ofBits (F := Ideal) .f32 0x00000000#32)

/-- Point `t` writes back block `t` of the whole result: each operand's block entry is the array's entry at row
    `10000 t + p`. -/
theorem written_block (c : Dev nD) (t : Fin cfg1.N) :
    (dat1 V c).flushed 4 t = ((cfg1.win 4).blk t).view.read (Elt Ideal)
      (combined (V c main_v41) (V c main_v4) (V c main_v28) (V c main_v42)) := by
  show (cfg1.win 4).cut (grid1.coords t) ((dat1 V c).after 4 t) = _
  rw [after1_4]
  unfold out1_4
  rw [View.canon_unit_zero zero_offsets]
  simp only [View.ld_unit_zero (S := S10000x32) zero_offsets, View.ld_unit_zero (S := S10000x1) zero_offsets,
    View.ld_unit_zero (S := S1x32) zero_offsets]
  obtain ⟨-, -, -, -, -, -, -, -, e8, e9⟩ := block_indices t
  funext j
  obtain ⟨p, q, rfl⟩ : ∃ (p : Fin 10000) (q : Fin 32), j = ix2 p q := ⟨j 0, j 1, eq_ix2 j⟩
  rw [View.read_apply]
  refine (stored_entry (iblk1 V c 0 t) (iblk1 V c 1 t) (iblk1 V c 2 t) (iblk1 V c 3 t) p q).trans ?_
  have hp : (p : Nat) < 10000 := p.isLt
  have r0 : ((((cfg1.win 4).blk t).view.emb (ix2 p q)) 0).val = 10000 * t.val + (p : Nat) := by
    show win1_4.index t (0 : Fin 2) * 10000 + 1 * (p : Nat) = _; rw [e8]; omega
  have r1 : ((((cfg1.win 4).blk t).view.emb (ix2 p q)) 1).val = (q : Nat) := by
    show win1_4.index t (1 : Fin 2) * 32 + 1 * (q : Nat) = _; rw [e9]; omega
  unfold combined
  refine congrArg₂ max (congrArg₂ (· + ·) (congrArg₂ (· + ·) (aggregate_block V c t (ix2 p q) _ ?_ ?_)
      (congrArg₂ (· * ·) (feature_block V c t (ix2 p q) _ ?_ ?_) (scale_block V c t (ix2 p 0) _ ?_ ?_)))
      (bias_block V c t (ix2 0 q) _ ?_ ?_)) rfl
  · exact r0
  · exact r1
  · exact r0
  · exact r1
  · exact r0
  · rfl
  · rfl
  · exact r1

/-- An index of the result is in point `t`'s block iff its row is among that block's rows. -/
theorem in_block (t : Fin cfg1.N) (i : S100000x32.Idx) :
    i ∈ ((cfg1.win 4).blk t).view.set ↔ ∀ a : Fin 2, win1_4.index t a * S10000x32.size a ≤ (i a).val ∧ (i a).val < win1_4.index t a * S10000x32.size a + S10000x32.size a := by
  show i ∈ ((View.whole main_v43).slice (win1_4.rect t)).set ↔ _
  rw [View.set_slice_whole, Rect.mem_set_unit]
  exact Iff.rfl

/-- Row `r` of the result lies in the block of point `r / 10000`. -/
theorem every_row_written (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  have hN : grid1.N = 10 := N_1
  have ht : (i 0).val / 10000 < cfg1.N := by show (i 0).val / 10000 < grid1.N; rw [hN]; omega
  refine ⟨⟨(i 0).val / 10000, ht⟩, flush1_4 _, ?_⟩
  rw [in_block]
  obtain ⟨-, -, -, -, -, -, -, -, e8, e9⟩ := block_indices ⟨(i 0).val / 10000, ht⟩
  intro a
  match a with
  | ⟨0, _⟩ =>
    show win1_4.index ⟨(i 0).val / 10000, ht⟩ (0 : Fin 2) * 10000 ≤ (i 0).val ∧ (i 0).val < win1_4.index ⟨(i 0).val / 10000, ht⟩ (0 : Fin 2) * 10000 + 10000
    rw [e8]; show (i 0).val / 10000 * 10000 ≤ (i 0).val ∧ (i 0).val < (i 0).val / 10000 * 10000 + 10000; omega
  | ⟨1, _⟩ =>
    show win1_4.index ⟨(i 0).val / 10000, ht⟩ (1 : Fin 2) * 32 ≤ (i 1).val ∧ (i 1).val < win1_4.index ⟨(i 0).val / 10000, ht⟩ (1 : Fin 2) * 32 + 32
    rw [e9]; omega

/-- After the launch the result array is the whole combination of the four arrays as the launch found them. -/
theorem array_after (c : Dev nD) :
    (dat1 V c).arrAt 4 cfg1.N = combined (V c main_v41) (V c main_v4) (V c main_v28) (V c main_v42) :=
  (dat1 V c).arrAt_eq_of_cover 4 _ (fun t _ => written_block V c t) every_row_written

end Cert.KernelIdeal.Combine1

end
-- ==== Proof.Combine2.lean ====
/-
  The second layer's combination: the launch over row blocks adds the self-loop term and the bias to the aggregate.

  Four arrays go in: the neighbour aggregate [100000, 16], the transformed features [100000, 16], the per-node scale
  [100000, 1] and the bias [1, 16].  The first three are cut into ten blocks of 10000 rows, the bias is taken whole; the
  body is entrywise, so the output's entry (r, q) is agg(r, q) + h(r, q) · d(r) + b(q).
-/
import proofs.«175498_j49555332661729_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Combine2

open Cert.KernelIdeal Cert.KernelIdeal.Gen

-- the buffers as the launch finds them: any valuation
variable (V : (c : Dev nD) → (b : Ref sig .tc) → Buf (Elt Ideal) ((c : Thread nD τ).loc b))

theorem zero_offsets : (![0, 0] : Fin 2 → Nat) = fun _ => 0 := funext fun a => by fin_cases a <;> rfl

/-! ## The body's value at an entry -/

/-- What the body stores, at row `p` and column `q` of its block: the aggregate's entry plus the feature's entry times the
    row's scale, plus the column's bias.  (The scale is a one-column block and the bias a one-row
    block, each broadcast over the other axis.) -/
theorem stored_entry (x0 x1 : Vec Ideal S10000x16 .f32) (x2 : Vec Ideal S10000x1 .f32) (x3 : Vec Ideal S1x16 .f32)
    (p : Fin 10000) (q : Fin 16) :
    k3_pay1 x0 x1 x2 x3 (ix2 p q) = (x0 (ix2 p q) + x1 (ix2 p q) * x2 (ix2 p 0)) + x3 (ix2 0 q) := by
  have hs : broadcastTo S10000x16 x2 broadcasts_S10000x1_S10000x16 (ix2 p q) = x2 (ix2 p 0) :=
    broadcastTo_apply x2 broadcasts_S10000x1_S10000x16 (ix2 p q) (ix2 p 0) fun a => by
      match a with
      | ⟨0, _⟩ => show (p : Nat) = if (10000 : Nat) = 1 then 0 else (p : Nat); rw [if_neg (by decide)]
      | ⟨1, _⟩ => show (0 : Nat) = if (1 : Nat) = 1 then 0 else (q : Nat); rw [if_pos rfl]
  have hb : broadcastTo S10000x16 x3 broadcasts_S1x16_S10000x16 (ix2 p q) = x3 (ix2 0 q) :=
    broadcastTo_apply x3 broadcasts_S1x16_S10000x16 (ix2 p q) (ix2 0 q) fun a => by
      match a with
      | ⟨0, _⟩ => show (0 : Nat) = if (1 : Nat) = 1 then 0 else (p : Nat); rw [if_pos rfl]
      | ⟨1, _⟩ => show (q : Nat) = if (16 : Nat) = 1 then 0 else (q : Nat); rw [if_neg (by decide)]
  unfold k3_pay1
  simp only [shapeCast_self]
  show (x0 (ix2 p q) + x1 (ix2 p q) * broadcastTo S10000x16 x2 broadcasts_S10000x1_S10000x16 (ix2 p q))
      + broadcastTo S10000x16 x3 broadcasts_S1x16_S10000x16 (ix2 p q) = _
  rw [hs, hb]

/-! ## The blocks as rows of the arrays -/

/-- The grid's point `t` takes block `t` of the rows of the aggregate, the feature, the scale and the result, and the
    whole bias. -/
theorem block_indices : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregate's block at point `t` holds its rows `10000 t … 10000 t + 9999`. -/
theorem aggregate_block (c : Dev nD) (t : Fin cfg3.N) (y : S10000x16.Idx) (i : S100000x16.Idx)
    (h0 : (i 0).val = 10000 * t.val + (y 0).val) (h1 : (i 1).val = (y 1).val) :
    (iblk3 V c 0 t : Vec Ideal S10000x16 .f32) y = (V c main_v57 : S100000x16.Idx → Ideal .f32) i := by
  obtain ⟨e0, e1, -⟩ := block_indices t
  unfold iblk3
  rw [View.read_apply]
  show V c main_v57 _ = V c main_v57 _
  congr 1
  funext a
  apply Fin.ext
  match a with
  | ⟨0, _⟩ => show win3_0.index t (0 : Fin 2) * 10000 + 1 * (y 0).val = (i 0).val; rw [e0, h0]; omega
  | ⟨1, _⟩ => show win3_0.index t (1 : Fin 2) * 16 + 1 * (y 1).val = (i 1).val; rw [e1, h1]; omega

/-- The feature's block at point `t` holds its rows `10000 t … 10000 t + 9999`. -/
theorem feature_block (c : Dev nD) (t : Fin cfg3.N) (y : S10000x16.Idx) (i : S100000x16.Idx)
    (h0 : (i 0).val = 10000 * t.val + (y 0).val) (h1 : (i 1).val = (y 1).val) :
    (iblk3 V c 1 t : Vec Ideal S10000x16 .f32) y = (V c main_v44 : S100000x16.Idx → Ideal .f32) i := by
  obtain ⟨-, -, e0, e1, -⟩ := block_indices t
  unfold iblk3
  rw [View.read_apply]
  show V c main_v44 _ = V c main_v44 _
  congr 1
  funext a
  apply Fin.ext
  match a with
  | ⟨0, _⟩ => show win3_1.index t (0 : Fin 2) * 10000 + 1 * (y 0).val = (i 0).val; rw [e0, h0]; omega
  | ⟨1, _⟩ => show win3_1.index t (1 : Fin 2) * 16 + 1 * (y 1).val = (i 1).val; rw [e1, h1]; omega

/-- The scale's block at point `t` holds its rows `10000 t … 10000 t + 9999` (one column). -/
theorem scale_block (c : Dev nD) (t : Fin cfg3.N) (y : S10000x1.Idx) (i : S100000x1.Idx)
    (h0 : (i 0).val = 10000 * t.val + (y 0).val) (h1 : (i 1).val = (y 1).val) :
    (iblk3 V c 2 t : Vec Ideal S10000x1 .f32) y = (V c main_v28 : S100000x1.Idx → Ideal .f32) i := by
  obtain ⟨-, -, -, -, e0, e1, -⟩ := block_indices t
  unfold iblk3
  rw [View.read_apply]
  show V c main_v28 _ = V c main_v28 _
  congr 1
  funext a
  apply Fin.ext
  match a with
  | ⟨0, _⟩ => show win3_2.index t (0 : Fin 2) * 10000 + 1 * (y 0).val = (i 0).val; rw [e0, h0]; omega
  | ⟨1, _⟩ => show win3_2.index t (1 : Fin 2) * 1 + 1 * (y 1).val = (i 1).val; rw [e1, h1]; omega

/-- The bias's block at every point is the whole bias (one row). -/
theorem bias_block (c : Dev nD) (t : Fin cfg3.N) (y : S1x16.Idx) (i : S1x16.Idx)
    (h0 : (i 0).val = (y 0).val) (h1 : (i 1).val = (y 1).val) :
    (iblk3 V c 3 t : Vec Ideal S1x16 .f32) y = (V c main_v58 : S1x16.Idx → Ideal .f32) i := by
  obtain ⟨-, -, -, -, -, -, e0, e1, -⟩ := block_indices t
  unfold iblk3
  rw [View.read_apply]
  show V c main_v58 _ = V c main_v58 _
  congr 1
  funext a
  apply Fin.ext
  match a with
  | ⟨0, _⟩ => show win3_3.index t (0 : Fin 2) * 1 + 1 * (y 0).val = (i 0).val; rw [e0, h0]; omega
  | ⟨1, _⟩ => show win3_3.index t (1 : Fin 2) * 16 + 1 * (y 1).val = (i 1).val; rw [e1, h1]; omega

/-! ## What a point writes back, and the array after the launch -/

/-- The whole result, entry by entry: `agg(r, q) + h(r, q) · d(r) + b(q)`. -/
def combined (agg h : S100000x16.Idx → Ideal .f32) (d : S100000x1.Idx → Ideal .f32) (b : S1x16.Idx → Ideal .f32) :
    S100000x16.Idx → Ideal .f32 :=
  fun i => (agg i + h i * d (ix2 (i 0) 0)) + b (ix2 0 (i 1))

/-- Point `t` writes back block `t` of the whole result: each operand's block entry is the array's entry at row
    `10000 t + p`. -/
theorem written_block (c : Dev nD) (t : Fin cfg3.N) :
    (dat3 V c).flushed 4 t = ((cfg3.win 4).blk t).view.read (Elt Ideal)
      (combined (V c main_v57) (V c main_v44) (V c main_v28) (V c main_v58)) := by
  show (cfg3.win 4).cut (grid3.coords t) ((dat3 V c).after 4 t) = _
  rw [after3_4]
  unfold out3_4
  rw [View.canon_unit_zero zero_offsets]
  simp only [View.ld_unit_zero (S := S10000x16) zero_offsets, View.ld_unit_zero (S := S10000x1) zero_offsets,
    View.ld_unit_zero (S := S1x16) zero_offsets]
  obtain ⟨-, -, -, -, -, -, -, -, e8, e9⟩ := block_indices t
  funext j
  obtain ⟨p, q, rfl⟩ : ∃ (p : Fin 10000) (q : Fin 16), j = ix2 p q := ⟨j 0, j 1, eq_ix2 j⟩
  rw [View.read_apply]
  refine (stored_entry (iblk3 V c 0 t) (iblk3 V c 1 t) (iblk3 V c 2 t) (iblk3 V c 3 t) p q).trans ?_
  have hp : (p : Nat) < 10000 := p.isLt
  have r0 : ((((cfg3.win 4).blk t).view.emb (ix2 p q)) 0).val = 10000 * t.val + (p : Nat) := by
    show win3_4.index t (0 : Fin 2) * 10000 + 1 * (p : Nat) = _; rw [e8]; omega
  have r1 : ((((cfg3.win 4).blk t).view.emb (ix2 p q)) 1).val = (q : Nat) := by
    show win3_4.index t (1 : Fin 2) * 16 + 1 * (q : Nat) = _; rw [e9]; omega
  unfold combined
  refine (congrArg₂ (· + ·) (congrArg₂ (· + ·) (aggregate_block V c t (ix2 p q) _ ?_ ?_)
      (congrArg₂ (· * ·) (feature_block V c t (ix2 p q) _ ?_ ?_) (scale_block V c t (ix2 p 0) _ ?_ ?_)))
      (bias_block V c t (ix2 0 q) _ ?_ ?_))
  · exact r0
  · exact r1
  · exact r0
  · exact r1
  · exact r0
  · rfl
  · rfl
  · exact r1

/-- An index of the result is in point `t`'s block iff its row is among that block's rows. -/
theorem in_block (t : Fin cfg3.N) (i : S100000x16.Idx) :
    i ∈ ((cfg3.win 4).blk t).view.set ↔ ∀ a : Fin 2, win3_4.index t a * S10000x16.size a ≤ (i a).val ∧ (i a).val < win3_4.index t a * S10000x16.size a + S10000x16.size a := by
  show i ∈ ((View.whole main_v59).slice (win3_4.rect t)).set ↔ _
  rw [View.set_slice_whole, Rect.mem_set_unit]
  exact Iff.rfl

/-- Row `r` of the result lies in the block of point `r / 10000`. -/
theorem every_row_written (i : S100000x16.Idx) :
    ∃ t : Fin cfg3.N, (cfg3.win 4).flush t = true ∧ i ∈ ((cfg3.win 4).blk t).view.set := by
  have hi0 : (i 0).val < 100000 := (i 0).isLt
  have hi1 : (i 1).val < 16 := (i 1).isLt
  have hN : grid3.N = 10 := N_3
  have ht : (i 0).val / 10000 < cfg3.N := by show (i 0).val / 10000 < grid3.N; rw [hN]; omega
  refine ⟨⟨(i 0).val / 10000, ht⟩, flush3_4 _, ?_⟩
  rw [in_block]
  obtain ⟨-, -, -, -, -, -, -, -, e8, e9⟩ := block_indices ⟨(i 0).val / 10000, ht⟩
  intro a
  match a with
  | ⟨0, _⟩ =>
    show win3_4.index ⟨(i 0).val / 10000, ht⟩ (0 : Fin 2) * 10000 ≤ (i 0).val ∧ (i 0).val < win3_4.index ⟨(i 0).val / 10000, ht⟩ (0 : Fin 2) * 10000 + 10000
    rw [e8]; show (i 0).val / 10000 * 10000 ≤ (i 0).val ∧ (i 0).val < (i 0).val / 10000 * 10000 + 10000; omega
  | ⟨1, _⟩ =>
    show win3_4.index ⟨(i 0).val / 10000, ht⟩ (1 : Fin 2) * 16 ≤ (i 1).val ∧ (i 1).val < win3_4.index ⟨(i 0).val / 10000, ht⟩ (1 : Fin 2) * 16 + 16
    rw [e9]; omega

/-- After the launch the result array is the whole combination of the four arrays as the launch found them. -/
theorem array_after (c : Dev nD) :
    (dat3 V c).arrAt 4 cfg3.N = combined (V c main_v57) (V c main_v44) (V c main_v28) (V c main_v58) :=
  (dat3 V c).arrAt_eq_of_cover 4 _ (fun t _ => written_block V c t) every_row_written

end Cert.KernelIdeal.Combine2

end
-- ==== Proof.LayerForms.lean ====
/-
  One layer's combination, in the two spellings.

  After the neighbour aggregation a layer adds the self-loop term and the bias: entry (r, q) of the result is
  `agg(r, q) + h(r, q) · d(r) + b(q)` (the first layer then takes the maximum with zero).  The launch computes it from a
  one-column scale [100000, 1] and a one-row bias [1, H] broadcast inside the body; the host program broadcasts both to
  the full [100000, H] shape first and then adds and multiplies whole arrays.  Entry by entry the two are the same sum.
  Also here: a vector reshaped to a one-column (or one-row) matrix is the vector broadcast along the new axis.
-/
import proofs.«175498_j49555332661729_1_alg».proof.Proof.Combine1
import proofs.«175498_j49555332661729_1_alg».proof.Proof.Combine2
import proofs.«175498_j49555332661729_1_alg».proof.Proof.Gen.ReferenceIdeal.Read
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.LayerForms

open Cert.ReferenceIdeal.Read

/-! ## Reshapes that only add a unit axis -/

/-- A vector of length `n` reshaped to `[n, 1]` is the vector broadcast along a new trailing axis. -/
theorem reshape_column {α : Type} {n : Nat} (hn : n ≠ 1) (v : (⟨1, ![n]⟩ : Shape).Idx → α)
    (h : (⟨1, ![n]⟩ : Shape).ShapeCasts ⟨2, ![n, 1]⟩)
    (h' : (⟨1, ![n]⟩ : Shape).BroadcastsInDim ⟨2, ![n, 1]⟩ (![0] : Fin 1 → Fin 2)) :
    shapeCast ⟨2, ![n, 1]⟩ v h = broadcastInDim ⟨2, ![n, 1]⟩ ![0] h' v := by
  funext j
  have hj1 : (j 1).val < 1 := (j 1).isLt
  refine (shapeCast_apply v h j (ix1 (j 0)) ?_).trans
    (broadcastInDim_apply (![0] : Fin 1 → Fin 2) h' v j (ix1 (j 0)) fun a => ?_).symm
  · rw [Shape.rowMajor_val_one, Shape.rowMajor_val_two]
    show (j 0).val = (j 0).val * 1 + (j 1).val
    omega
  · match a with
    | ⟨0, _⟩ => show (j 0).val = if n = 1 then 0 else (j 0).val; rw [if_neg hn]

/-- A vector of length `n` reshaped to `[1, n]` is the vector broadcast along a new leading axis. -/
theorem reshape_row {α : Type} {n : Nat} (hn : n ≠ 1) (v : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ v h = broadcastInDim ⟨2, ![1, n]⟩ ![1] h' v := by
  funext j
  have hj0 : (j 0).val < 1 := (j 0).isLt
  refine (shapeCast_apply v h j (ix1 (j 1)) ?_).trans
    (broadcastInDim_apply (![1] : Fin 1 → Fin 2) h' v j (ix1 (j 1)) fun a => ?_).symm
  · rw [Shape.rowMajor_val_one, Shape.rowMajor_val_two]
    show (j 1).val = (j 0).val * n + (j 1).val
    have : (j 0).val = 0 := by omega
    rw [this]; omega
  · match a with
    | ⟨0, _⟩ => show (j 1).val = if n = 1 then 0 else (j 1).val; rw [if_neg hn]

/-! ## The two layers -/

variable (x0 : (⟨Cert.ReferenceIdeal.S100000x128, .f32⟩ : BufTy).Contents (Elt Ideal))
  (x1 : (⟨Cert.ReferenceIdeal.S2x3200000, .i32⟩ : BufTy).Contents (Elt Ideal))
  (x2 : (⟨Cert.ReferenceIdeal.S128x32, .f32⟩ : BufTy).Contents (Elt Ideal))
  (x3 : (⟨Cert.ReferenceIdeal.S32, .f32⟩ : BufTy).Contents (Elt Ideal))
  (x4 : (⟨Cert.ReferenceIdeal.S32x16, .f32⟩ : BufTy).Contents (Elt Ideal))
  (x5 : (⟨Cert.ReferenceIdeal.S16, .f32⟩ : BufTy).Contents (Elt Ideal))

/-- The first layer: the entrywise combination of the aggregate, the features, the column scale and the row bias is the
    host's maximum-with-zero of the sums of whole broadcast arrays. -/
theorem first_layer :
    Cert.KernelIdeal.Combine1.combined (val_main_v39 (F := Ideal) x0 x1 x2) (val_main_v4 (F := Ideal) x0 x2)
      (val_main_v41 (F := Ideal) x1) (val_main_v45 (F := Ideal) x3) = val_main_v48 (F := Ideal) x0 x1 x2 x3 := by
  funext i
  have e1 : idx_main_v42 i = ix2 (i 0) 0 := funext fun a => Fin.ext (by match a with | ⟨0, _⟩ => rfl | ⟨1, _⟩ => rfl)
  have e2 : idx_main_v46 i = ix2 0 (i 1) := funext fun a => Fin.ext (by match a with | ⟨0, _⟩ => rfl | ⟨1, _⟩ => rfl)
  rw [val_main_v48_apply, val_main_v47_apply, val_main_v44_apply, val_main_v43_apply, val_main_v42_apply,
    val_main_v46_apply, val_main_call0_v0_apply, val_main_call0_cst_apply, e1, e2]
  rfl

/-- The second layer: the same without the clamp. -/
theorem second_layer :
    Cert.KernelIdeal.Combine2.combined (val_main_v84 (F := Ideal) x0 x1 x2 x3 x4) (val_main_v49 (F := Ideal) x0 x1 x2 x3 x4)
      (val_main_v86 (F := Ideal) x1) (val_main_v90 (F := Ideal) x5) = val_main_v92 (F := Ideal) x0 x1 x2 x3 x4 x5 := by
  funext i
  have e1 : idx_main_v87 i = ix2 (i 0) 0 := funext fun a => Fin.ext (by match a with | ⟨0, _⟩ => rfl | ⟨1, _⟩ => rfl)
  have e2 : idx_main_v91 i = ix2 0 (i 1) := funext fun a => Fin.ext (by match a with | ⟨0, _⟩ => rfl | ⟨1, _⟩ => rfl)
  rw [val_main_v92_apply, val_main_v89_apply, val_main_v88_apply, val_main_v87_apply, val_main_v91_apply, e1, e2]
  rfl

end Cert.KernelIdeal.LayerForms

end
-- ==== Proof.Boundaries.lean ====
/-
  The contents of the kernel program's buffers at each segment boundary, named as the host program's stages.

  The kernel program and the host program apply the same host operations to the same arrays between the four places
  where the kernel launches a grid and the host applies one whole-array operation: the two matrix products and the two
  entrywise combinations.  So, walking the boundaries in order, every buffer the next segment reads holds the same array as
  the host program's corresponding stage, as a function of the six arguments:
  the edge endpoints; the first product; the degree normalisation, the edge weights, the first aggregate; the first
  layer's output; the second product; the second aggregate; the result.
  The host program recomputes the degree normalisation for its second layer; it is the same term of the edge array, so
  the one array the kernel computed serves both.
-/
import proofs.«175498_j49555332661729_1_alg».proof.Proof.FeatureProduct1
import proofs.«175498_j49555332661729_1_alg».proof.Proof.FeatureProduct2
import proofs.«175498_j49555332661729_1_alg».proof.Proof.Combine1
import proofs.«175498_j49555332661729_1_alg».proof.Proof.Combine2
import proofs.«175498_j49555332661729_1_alg».proof.Proof.LayerForms
import proofs.«175498_j49555332661729_1_alg».proof.Proof.Gen.KernelIdeal.Frame
import proofs.«175498_j49555332661729_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Boundaries

open Cert.KernelIdeal Cert.KernelIdeal.Gen Idealize.ShloMosaic.StableHlo
open Cert.ReferenceIdeal.Read

variable (m : (ℓ : Loc nD τ sig) → Buf (Elt Ideal) ℓ) (ρ : Dev nD → PrngReg) (c : Dev nD)

/-! ## Before the first launch: the edge endpoints -/

theorem W1_v1 : W1 m ρ c (Proc.devRef .tc main_v1) = val_main_v1 (F := Ideal) (m ((c.tc : Thread nD τ).loc main_arg1)) := by
  show StableHlo.after hostOps0 (W0 m ρ c) (Proc.devRef .tc main_v1) = _
  after_results
  rfl
theorem W1_v3 : W1 m ρ c (Proc.devRef .tc main_v3) = val_main_v3 (F := Ideal) (m ((c.tc : Thread nD τ).loc main_arg1)) := by
  show StableHlo.after hostOps0 (W0 m ρ c) (Proc.devRef .tc main_v3) = _
  after_results
  rfl
theorem W1_arg0 : W1 m ρ c (Proc.devRef .tc main_arg0) = (m ((c.tc : Thread nD τ).loc main_arg0)) := by
  show StableHlo.after hostOps0 (W0 m ρ c) (Proc.devRef .tc main_arg0) = _
  after_results
theorem W1_arg2 : W1 m ρ c (Proc.devRef .tc main_arg2) = (m ((c.tc : Thread nD τ).loc main_arg2)) := by
  show StableHlo.after hostOps0 (W0 m ρ c) (Proc.devRef .tc main_arg2) = _
  after_results
theorem W1_arg3 : W1 m ρ c (Proc.devRef .tc main_arg3) = (m ((c.tc : Thread nD τ).loc main_arg3)) := by
  show StableHlo.after hostOps0 (W0 m ρ c) (Proc.devRef .tc main_arg3) = _
  after_results
theorem W1_arg4 : W1 m ρ c (Proc.devRef .tc main_arg4) = (m ((c.tc : Thread nD τ).loc main_arg4)) := by
  show StableHlo.after hostOps0 (W0 m ρ c) (Proc.devRef .tc main_arg4) = _
  after_results
theorem W1_arg5 : W1 m ρ c (Proc.devRef .tc main_arg5) = (m ((c.tc : Thread nD τ).loc main_arg5)) := by
  show StableHlo.after hostOps0 (W0 m ρ c) (Proc.devRef .tc main_arg5) = _
  after_results

/-! ## After the first launch: the first product -/

theorem W2_v4 : W2 m ρ c (Proc.devRef .tc main_v4) = val_main_v4 (F := Ideal) (m ((c.tc : Thread nD τ).loc main_arg0)) (m ((c.tc : Thread nD τ).loc main_arg2)) := by
  refine (W2_arr m ρ c 2).trans ((Cert.KernelIdeal.FeatureProduct1.array_after (V1 m ρ) c).trans ?_)
  show Cert.KernelIdeal.FeatureProduct1.product (W1 m ρ c (Proc.devRef .tc main_arg0)) (W1 m ρ c (Proc.devRef .tc main_arg2)) = _
  rw [W1_arg0, W1_arg2]
  rfl
theorem W2_v1 : W2 m ρ c (Proc.devRef .tc main_v1) = val_main_v1 (F := Ideal) (m ((c.tc : Thread nD τ).loc main_arg1)) :=
  (W2_of_ne m ρ c main_v1 (by decide)).trans (W1_v1 m ρ c)
theorem W2_v3 : W2 m ρ c (Proc.devRef .tc main_v3) = val_main_v3 (F := Ideal) (m ((c.tc : Thread nD τ).loc main_arg1)) :=
  (W2_of_ne m ρ c main_v3 (by decide)).trans (W1_v3 m ρ c)
theorem W2_arg3 : W2 m ρ c (Proc.devRef .tc main_arg3) = (m ((c.tc : Thread nD τ).loc main_arg3)) :=
  (W2_of_ne m ρ c main_arg3 (by decide)).trans (W1_arg3 m ρ c)
theorem W2_arg4 : W2 m ρ c (Proc.devRef .tc main_arg4) = (m ((c.tc : Thread nD τ).loc main_arg4)) :=
  (W2_of_ne m ρ c main_arg4 (by decide)).trans (W1_arg4 m ρ c)
theorem W2_arg5 : W2 m ρ c (Proc.devRef .tc main_arg5) = (m ((c.tc : Thread nD τ).loc main_arg5)) :=
  (W2_of_ne m ρ c main_arg5 (by decide)).trans (W1_arg5 m ρ c)

/-! ## Before the second launch: the normalisation, the edge weights, the first aggregate -/

theorem W3_v4 : W3 m ρ c (Proc.devRef .tc main_v4) = val_main_v4 (F := Ideal) (m ((c.tc : Thread nD τ).loc main_arg0)) (m ((c.tc : Thread nD τ).loc main_arg2)) := by
  show StableHlo.after hostOps1 (W2 m ρ c) (Proc.devRef .tc main_v4) = _
  refine Eq.trans ?_ (W2_v4 m ρ c)
  after_results

theorem W3_v1 : W3 m ρ c (Proc.devRef .tc main_v1) = val_main_v1 (F := Ideal) (m ((c.tc : Thread nD τ).loc main_arg1)) := by
  show StableHlo.after hostOps1 (W2 m ρ c) (Proc.devRef .tc main_v1) = _
  refine Eq.trans ?_ (W2_v1 m ρ c)
  after_results

theorem W3_v3 : W3 m ρ c (Proc.devRef .tc main_v3) = val_main_v3 (F := Ideal) (m ((c.tc : Thread nD τ).loc main_arg1)) := by
  show StableHlo.after hostOps1 (W2 m ρ c) (Proc.devRef .tc main_v3) = _
  refine Eq.trans ?_ (W2_v3 m ρ c)
  after_results

theorem W3_arg4 : W3 m ρ c (Proc.devRef .tc main_arg4) = (m ((c.tc : Thread nD τ).loc main_arg4)) := by
  show StableHlo.after hostOps1 (W2 m ρ c) (Proc.devRef .tc main_arg4) = _
  refine Eq.trans ?_ (W2_arg4 m ρ c)
  after_results

theorem W3_arg5 : W3 m ρ c (Proc.devRef .tc main_arg5) = (m ((c.tc : Thread nD τ).loc main_arg5)) := by
  show StableHlo.after hostOps1 (W2 m ρ c) (Proc.devRef .tc main_arg5) = _
  refine Eq.trans ?_ (W2_arg5 m ρ c)
  after_results

set_option maxHeartbeats 4000000 in
/-- The first aggregate: the edge-weighted rows of the first product, summed into their destination rows. -/
theorem W3_v41 : W3 m ρ c (Proc.devRef .tc main_v41) = val_main_v39 (F := Ideal) (m ((c.tc : Thread nD τ).loc main_arg0)) (m ((c.tc : Thread nD τ).loc main_arg1)) (m ((c.tc : Thread nD τ).loc main_arg2)) := by
  show StableHlo.after hostOps1 (W2 m ρ c) (Proc.devRef .tc main_v41) = _
  after_results_simp
  rw [W2_v4, W2_v1, W2_v3]
  rfl
set_option maxHeartbeats 4000000 in
/-- The edge weights, as the host program's second layer spells them. -/
theorem W3_v26 : W3 m ρ c (Proc.devRef .tc main_v26) = val_main_v71 (F := Ideal) (m ((c.tc : Thread nD τ).loc main_arg1)) := by
  show StableHlo.after hostOps1 (W2 m ρ c) (Proc.devRef .tc main_v26) = _
  after_results_simp
  rw [W2_v1, W2_v3]
  rfl
/-- The per-node scale as a one-column matrix, as the host program's first layer spells it. -/
theorem W3_v28 : W3 m ρ c (Proc.devRef .tc main_v28) = val_main_v41 (F := Ideal) (m ((c.tc : Thread nD τ).loc main_arg1)) := by
  show StableHlo.after hostOps1 (W2 m ρ c) (Proc.devRef .tc main_v28) = _
  after_results
  rw [W2_v3]
  refine (Cert.KernelIdeal.LayerForms.reshape_column (by decide) _ _ Cert.ReferenceIdeal.Gen.bcast_S100000_S100000x1_0).trans ?_
  rfl
/-- The same matrix, as the host program's second layer spells it. -/
theorem W3_v28' : W3 m ρ c (Proc.devRef .tc main_v28) = val_main_v86 (F := Ideal) (m ((c.tc : Thread nD τ).loc main_arg1)) := by
  show StableHlo.after hostOps1 (W2 m ρ c) (Proc.devRef .tc main_v28) = _
  after_results
  rw [W2_v3]
  refine (Cert.KernelIdeal.LayerForms.reshape_column (by decide) _ _ Cert.ReferenceIdeal.Gen.bcast_S100000_S100000x1_0).trans ?_
  rfl
/-- The first bias as a one-row matrix. -/
theorem W3_v42 : W3 m ρ c (Proc.devRef .tc main_v42) = val_main_v45 (F := Ideal) (m ((c.tc : Thread nD τ).loc main_arg3)) := by
  show StableHlo.after hostOps1 (W2 m ρ c) (Proc.devRef .tc main_v42) = _
  after_results
  rw [W2_arg3]
  refine (Cert.KernelIdeal.LayerForms.reshape_row (by decide) _ _ Cert.ReferenceIdeal.Gen.bcast_S32_S1x32_1).trans ?_
  rfl

/-! ## After the second launch: the first layer's output -/

theorem W4_v43 : W4 m ρ c (Proc.devRef .tc main_v43) = val_main_v48 (F := Ideal) (m ((c.tc : Thread nD τ).loc main_arg0)) (m ((c.tc : Thread nD τ).loc main_arg1)) (m ((c.tc : Thread nD τ).loc main_arg2)) (m ((c.tc : Thread nD τ).loc main_arg3)) := by
  refine (W4_arr m ρ c 4).trans ((Cert.KernelIdeal.Combine1.array_after (V3 m ρ) c).trans ?_)
  show Cert.KernelIdeal.Combine1.combined (W3 m ρ c (Proc.devRef .tc main_v41)) (W3 m ρ c (Proc.devRef .tc main_v4))
    (W3 m ρ c (Proc.devRef .tc main_v28)) (W3 m ρ c (Proc.devRef .tc main_v42)) = _
  rw [W3_v41, W3_v4, W3_v28, W3_v42]
  exact Cert.KernelIdeal.LayerForms.first_layer _ _ _ _
theorem W4_v1 : W4 m ρ c (Proc.devRef .tc main_v1) = val_main_v1 (F := Ideal) (m ((c.tc : Thread nD τ).loc main_arg1)) :=
  (W4_of_ne m ρ c main_v1 (by decide)).trans (W3_v1 m ρ c)
theorem W4_v3 : W4 m ρ c (Proc.devRef .tc main_v3) = val_main_v3 (F := Ideal) (m ((c.tc : Thread nD τ).loc main_arg1)) :=
  (W4_of_ne m ρ c main_v3 (by decide)).trans (W3_v3 m ρ c)
theorem W4_v26 : W4 m ρ c (Proc.devRef .tc main_v26) = val_main_v71 (F := Ideal) (m ((c.tc : Thread nD τ).loc main_arg1)) :=
  (W4_of_ne m ρ c main_v26 (by decide)).trans (W3_v26 m ρ c)
/-- The scale is one of the launch's input arrays: it ends as it was entered. -/
theorem W4_v28 : W4 m ρ c (Proc.devRef .tc main_v28) = val_main_v86 (F := Ideal) (m ((c.tc : Thread nD τ).loc main_arg1)) :=
  ((W4_arr m ρ c 2).trans (((dat1 (V3 m ρ) c).arrAt_in 2 rfl _).trans (A_eq1 (V3 m ρ) c 2))).trans (W3_v28' m ρ c)
theorem W4_arg4 : W4 m ρ c (Proc.devRef .tc main_arg4) = (m ((c.tc : Thread nD τ).loc main_arg4)) :=
  (W4_of_ne m ρ c main_arg4 (by decide)).trans (W3_arg4 m ρ c)
theorem W4_arg5 : W4 m ρ c (Proc.devRef .tc main_arg5) = (m ((c.tc : Thread nD τ).loc main_arg5)) :=
  (W4_of_ne m ρ c main_arg5 (by decide)).trans (W3_arg5 m ρ c)

/-! ## After the third launch: the second product -/

theorem W5_v44 : W5 m ρ c (Proc.devRef .tc main_v44) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W5_arr m ρ c 2).trans ((Cert.KernelIdeal.FeatureProduct2.array_after (V4 m ρ) c).trans ?_)
  show Cert.KernelIdeal.FeatureProduct2.product (W4 m ρ c (Proc.devRef .tc main_v43)) (W4 m ρ c (Proc.devRef .tc main_arg4)) = _
  rw [W4_v43, W4_arg4]
  rfl
theorem W5_v1 : W5 m ρ c (Proc.devRef .tc main_v1) = val_main_v1 (F := Ideal) (m ((c.tc : Thread nD τ).loc main_arg1)) :=
  (W5_of_ne m ρ c main_v1 (by decide)).trans (W4_v1 m ρ c)
theorem W5_v3 : W5 m ρ c (Proc.devRef .tc main_v3) = val_main_v3 (F := Ideal) (m ((c.tc : Thread nD τ).loc main_arg1)) :=
  (W5_of_ne m ρ c main_v3 (by decide)).trans (W4_v3 m ρ c)
theorem W5_v26 : W5 m ρ c (Proc.devRef .tc main_v26) = val_main_v71 (F := Ideal) (m ((c.tc : Thread nD τ).loc main_arg1)) :=
  (W5_of_ne m ρ c main_v26 (by decide)).trans (W4_v26 m ρ c)
theorem W5_v28 : W5 m ρ c (Proc.devRef .tc main_v28) = val_main_v86 (F := Ideal) (m ((c.tc : Thread nD τ).loc main_arg1)) :=
  (W5_of_ne m ρ c main_v28 (by decide)).trans (W4_v28 m ρ c)
theorem W5_arg5 : W5 m ρ c (Proc.devRef .tc main_arg5) = (m ((c.tc : Thread nD τ).loc main_arg5)) :=
  (W5_of_ne m ρ c main_arg5 (by decide)).trans (W4_arg5 m ρ c)

/-! ## Before the fourth launch: the second aggregate -/

theorem W6_v44 : W6 m ρ c (Proc.devRef .tc main_v44) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps3 (W5 m ρ c) (Proc.devRef .tc main_v44) = _
  refine Eq.trans ?_ (W5_v44 m ρ c)
  after_results

theorem W6_v28 : W6 m ρ c (Proc.devRef .tc main_v28) = val_main_v86 (F := Ideal) (m ((c.tc : Thread nD τ).loc main_arg1)) := by
  show StableHlo.after hostOps3 (W5 m ρ c) (Proc.devRef .tc main_v28) = _
  refine Eq.trans ?_ (W5_v28 m ρ c)
  after_results

set_option maxHeartbeats 4000000 in
/-- The second aggregate: the edge-weighted rows of the second product, summed into their destination rows. -/
theorem W6_v57 : W6 m ρ c (Proc.devRef .tc main_v57) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps3 (W5 m ρ c) (Proc.devRef .tc main_v57) = _
  after_results_simp
  rw [W5_v44, W5_v1, W5_v3, W5_v26]
  rfl
/-- The second bias as a one-row matrix. -/
theorem W6_v58 : W6 m ρ c (Proc.devRef .tc main_v58) = val_main_v90 (F := Ideal) (m ((c.tc : Thread nD τ).loc main_arg5)) := by
  show StableHlo.after hostOps3 (W5 m ρ c) (Proc.devRef .tc main_v58) = _
  after_results
  rw [W5_arg5]
  refine (Cert.KernelIdeal.LayerForms.reshape_row (by decide) _ _ Cert.ReferenceIdeal.Gen.bcast_S16_S1x16_1).trans ?_
  rfl

/-! ## After the fourth launch: the result -/

/-- The result buffer at the last boundary is the host program's result, as a function of the six arguments. -/
theorem W7_v59 : W7 m ρ c (Proc.devRef .tc main_v59) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W7_arr m ρ c 4).trans ((Cert.KernelIdeal.Combine2.array_after (V6 m ρ) c).trans ?_)
  show Cert.KernelIdeal.Combine2.combined (W6 m ρ c (Proc.devRef .tc main_v57)) (W6 m ρ c (Proc.devRef .tc main_v44))
    (W6 m ρ c (Proc.devRef .tc main_v28)) (W6 m ρ c (Proc.devRef .tc main_v58)) = _
  rw [W6_v57, W6_v44, W6_v28, W6_v58]
  exact Cert.KernelIdeal.LayerForms.second_layer _ _ _ _ _ _

end Cert.KernelIdeal.Boundaries

end
-- ==== Proof.lean ====
/-
  A two-layer graph convolution: the kernel program against its host reference, on the extended reals.

  Both programs compute, for node features x [100000, 128], edges (src, dst) [2, 3200000], weights W1 [128, 32],
  W2 [32, 16] and biases b1, b2:

      deg  = 1 + (number of edges into each node)          dinv = deg^(-1/2)          norm(e) = dinv(src e) · dinv(dst e)
      layer(h, W, b) = scatter-add over edges of norm(e) · (h W)(src e) into row dst e,  plus  (h W) · dinv²  (row-wise),  plus b
      out  = layer(max(layer(x, W1, b1), 0), W2, b2)

  The kernel program launches a grid for each of the two products `h W` (ten blocks of 10000 rows, each block times the whole
  weight into a zero accumulator) and for each of the two entrywise combinations `agg + (h W) · dinv² + b` (the same row
  blocks; the scale as a one-column block, the bias as a one-row block), and leaves the degree count, the gathers and the
  scatter-adds to the same host operations the reference uses.  On the extended reals a block product into a zero
  accumulator is the host's contraction restricted to the block's rows, and the entrywise combination is the host's sum of
  broadcast arrays in the same grouping `(agg + h·d) + b`; no distributive law or cancellation is used, so the inputs'
  finiteness is never opened.  The reference recomputes the normalisation for the second layer; it is the same function of
  the edge array.

  Proof/KernelRun.lean names the kernel program's result as the last boundary's valuation; Proof/FeatureProduct1,2.lean and
  Proof/Combine1,2.lean read each launch's output array as one whole-array function of its input arrays;
  Proof/LayerForms.lean identifies the entrywise combination with the host's spelling; Proof/Boundaries.lean walks the
  boundaries and names every buffer a later segment reads as the reference's stage.  Here: the five claims.
-/
import proofs.«175498_j49555332661729_1_alg».proof.Defs
import proofs.«175498_j49555332661729_1_alg».proof.Proof.Gen.Kernel
import proofs.«175498_j49555332661729_1_alg».proof.Proof.Gen.Kernel.Frame
import proofs.«175498_j49555332661729_1_alg».proof.Proof.Gen.KernelIdeal
import proofs.«175498_j49555332661729_1_alg».proof.Proof.Gen.KernelIdeal.Frame
import proofs.«175498_j49555332661729_1_alg».proof.Proof.Gen.ReferenceIdeal
import proofs.«175498_j49555332661729_1_alg».proof.Proof.Gen.ReferenceIdeal.Run
import proofs.«175498_j49555332661729_1_alg».proof.Proof.Gen.ReferenceIdeal.Read
import proofs.«175498_j49555332661729_1_alg».proof.Proof.Gen.Pre_finite_inputs
import proofs.«175498_j49555332661729_1_alg».proof.Proof.KernelRun
import proofs.«175498_j49555332661729_1_alg».proof.Proof.Boundaries
import Idealize.ShloMosaic.Adequacy
import Idealize.ShloMosaic.Init

noncomputable section

namespace Cert.Proof

open Idealize.ShloMosaic Idealize.ShloMosaic.TcCoe Idealize.SL.Sem

/-- The kernel program as printed runs to the end without a fault and leaves its arguments as launched. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with the same result array: the kernel program's last
    boundary, read at the result buffer, is the reference's last stage as a function of the arguments. -/
theorem algebraic : Cert.algebraic_KernelIdeal_ReferenceIdeal := by
  intro m ρ m' ρ' _ hagree
  refine ⟨fun c => Cert.KernelIdeal.Gen.W7 m ρ c (Proc.devRef .tc Cert.KernelIdeal.main_v59),
    Cert.KernelIdeal.Whole.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v92_eq, (hagree c).1, (hagree c).2.1, (hagree c).2.2.1, (hagree c).2.2.2.1,
    (hagree c).2.2.2.2.1, (hagree c).2.2.2.2.2]
  exact (Cert.KernelIdeal.Boundaries.W7_v59 m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
